-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096x4096 : Shape := ⟨2, ![4096, 4096]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 29
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .i1⟩
  | .hbm, ⟨3, _⟩ => ⟨S4096x1024, .i1⟩
  | .hbm, ⟨4, _⟩ => ⟨S_, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_cst_0 : Ref sig .tc := ⟨.hbm, 8, rfl⟩
abbrev main_call1_v0 : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S4096x1024 : S_.BroadcastsInDim S4096x1024 (![] : Fin 0 → Fin S4096x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S512x512_S512x512_0_0 : ∀ a, (![0, 0] : Fin 2 → Nat) a + S512x512.size a ≤ S512x512.size a
  h_S512x512 : 0 < S512x512.numel
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .i1⟩
  | .hbm, ⟨3, _⟩ => ⟨S4096x1024, .i1⟩
  | .hbm, ⟨4, _⟩ => ⟨S_, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S1024x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S1024x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S1024x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .i1⟩
  | .hbm, ⟨55, _⟩ => ⟨S_, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_cst_0 : Ref sig .tc := ⟨.hbm, 8, rfl⟩
abbrev main_call1_v0 : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_call3_v0 : Ref sig .tc := ⟨.hbm, 56, rfl⟩
abbrev main_call3_v1 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x1_S1x4096_1_0 : S4096x1.Transposes [1, 0] S1x4096
  bcast_S1x4096_S4096x4096_0_1 : S1x4096.BroadcastsInDim S4096x4096 (![0, 1] : Fin 2 → Fin S4096x4096.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The function both programs compute, stated once, and the scalar facts that make the two spellings agree.

  The task is the pairwise "NaN-aware" Euclidean distance between the rows of X and Y (each 4096 × 1024): a missing
  entry (a NaN) is replaced by 0 and left out of the count of present coordinates. Over the extended reals there is
  no NaN: the test "x ≠ x" fails for every x, the infinities included. So the mask of missing entries is empty, every
  presence indicator is 1, the count of present coordinate pairs is 1024 for every pair of rows, and both programs
  reduce to

      out (i, j) = √( max (−2·⟨X i, Y j⟩ + ⟨X i, X i⟩ + ⟨Y j, Y j⟩) 0 / max 1 1024 · 1024 ).

  The kernel reaches ⟨X i, X i⟩ as Σ_k x²·1 (a product with the presence indicator of Y's row) and the reference as a
  plain row sum followed by the subtraction of Σ_k x²·0 (a product with the missing indicator); these agree by
  x·1 = x, x·0 = 0 and d − 0 = d, which hold for every extended real, so no finiteness of the inputs is used.
-/
import Idealize.ShloMosaic.PureOps.Ideal
import Idealize.ShloMosaic.PureOps.Ideal.Laws
import Idealize.ShloMosaic.Lib.ValueIdx

noncomputable section

namespace Cert.NanDist

open Idealize.ShloMosaic Idealize.ShloMosaic.ValueIdx

/-- The two inputs' shape: 4096 rows of 1024 coordinates. -/
abbrev SIn : Shape := ⟨2, ![4096, 1024]⟩
/-- The result's shape: one distance per pair of rows. -/
abbrev SOut : Shape := ⟨2, ![4096, 4096]⟩

/-! ## The literals that are evaluated (the others occur as the same word on both sides) -/

/-- The word of `1.0` denotes 1. -/
theorem ofBits_one : Ideal.ofBits .f32 0x3F800000#32 = 1 := by
  simp [Ideal.ofBits, Ideal.ieee, -EReal.coe_mul]; norm_num

/-- The word of `0.5` denotes 1/2. -/
theorem ofBits_half : Ideal.ofBits .f32 0x3F000000#32 = ((1 / 2 : ℝ) : EReal) := by
  simp [Ideal.ofBits, Ideal.ieee, -EReal.coe_mul]; norm_num

/-! ## No entry is missing -/

/-- "x ≠ x" is false for every extended real: the missing-entry mask is 0 everywhere. -/
theorem cmp_une_self (x : EReal) : Ideal.cmp .une x x = 0#1 := by
  simp [Ideal.cmp]

/-- The missing indicator as a float is 0. -/
theorem missing_eq (x : EReal) : FloatOps.uitofp (F := Ideal) .f32 (Ideal.cmp .une x x) = 0 := by
  rw [cmp_une_self]; show (((0#1 : BitVec 1).toNat : ℝ) : EReal) = 0; simp

/-- The zero-filled entry is the entry. -/
theorem fill_eq (x : EReal) : Scalar.select (Ideal.cmp .une x x) (Ideal.ofBits .f32 0x00000000#32) x = x := by
  rw [cmp_une_self]; exact select_zero _ _

/-- The presence indicator `1.0 − missing` is 1. -/
theorem present_eq (x : EReal) : Ideal.ofBits .f32 0x3F800000#32 - FloatOps.uitofp (F := Ideal) .f32 (Ideal.cmp .une x x) = 1 := by
  rw [missing_eq, ofBits_one, sub_zero]

/-! ## The count of present coordinate pairs -/

/-- Every pair of rows has all 1024 coordinates present. -/
theorem count_eq : (∑ _k : Fin 1024, (1 : EReal) * 1) = 1024 := by
  simp

/-- The count is not below one half (the kernel's test for "no coordinate present"), -/
theorem count_not_lt_half : Ideal.cmp .olt (1024 : EReal) (Ideal.ofBits .f32 0x3F000000#32) = 0#1 := by
  rw [ofBits_half]
  have h : ¬ ((1024 : EReal) < ((1 / 2 : ℝ) : EReal)) := by
    rw [show (1024 : EReal) = ((1024 : ℝ) : EReal) by norm_cast, EReal.coe_lt_coe_iff]; norm_num
  show BitVec.ofBool (decide ((1024 : EReal) < ((1 / 2 : ℝ) : EReal))) = 0#1
  rw [decide_eq_false h]; rfl

/-- nor equal to zero (the reference's test). -/
theorem count_not_eq_zero : Ideal.cmp .oeq (1024 : EReal) (Ideal.ofBits .f32 0x00000000#32) = 0#1 := by
  rw [Ideal.ofBits_zero_f32]
  have h : ¬ ((1024 : EReal) = 0) := by
    rw [show (1024 : EReal) = ((1024 : ℝ) : EReal) by norm_cast, show (0 : EReal) = ((0 : ℝ) : EReal) by norm_cast, EReal.coe_eq_coe_iff]; norm_num
  simp [Ideal.cmp, h]

/-! ## The specification -/

/-- The inner product of row `i` of `X` with row `j` of `Y`. -/
def dot (X Y : SIn.Idx → EReal) (i j : Fin 4096) : EReal := ∑ k : Fin 1024, X (ix2 i k) * Y (ix2 j k)

/-- The squared distance by the expansion −2·⟨x, y⟩ + ⟨x, x⟩ + ⟨y, y⟩ (the word is that of `-2.0`). -/
def sqd (X Y : SIn.Idx → EReal) (i j : Fin 4096) : EReal :=
  Ideal.ofBits .f32 0xC0000000#32 * dot X Y i j + dot X X i i + dot Y Y j j

/-- What both programs do to a squared distance: clip at 0, divide by the count (at least 1), scale by the number of
    coordinates (the word is that of `1024.0`), take the root. -/
def post (d : EReal) : EReal :=
  Ideal.sqrt (Ideal.div (max d 0) (max 1 1024) * Ideal.ofBits .f32 0x44800000#32)

/-- The result array as one function of the two argument arrays. -/
def G (X Y : SIn.Idx → EReal) : SOut.Idx → EReal :=
  fun idx => post (sqd X Y ⟨(idx 0).val, idx2_lt0 idx⟩ ⟨(idx 1).val, idx2_lt1 idx⟩)

theorem G_ix2 (X Y : SIn.Idx → EReal) (i j : Fin 4096) : G X Y (ix2 i j) = post (sqd X Y i j) := rfl

/-! ## One element as the kernel computes it from the six rows it reads -/

/-- One output element of the kernel: from row `i` of the zero-filled X, of its squares and of its presence
    indicators (`xc`, `xx`, `px`) and the same three of row `j` of Y (`yc`, `yy`, `py`), four inner products, then the
    arithmetic of the kernel's body, literal by literal. -/
def kelt (xc xx px yc yy py : Fin 1024 → EReal) : EReal :=
  Ideal.sqrt (Ideal.div
      (Scalar.select (Ideal.cmp .olt (∑ k : Fin 1024, px k * py k) (Ideal.ofBits .f32 0x3F000000#32))
        (Ideal.ofBits .f32 0x7FC00000#32)
        (max (Ideal.ofBits .f32 0xC0000000#32 * (∑ k : Fin 1024, xc k * yc k) + (∑ k : Fin 1024, xx k * py k)
            + (∑ k : Fin 1024, px k * yy k)) (Ideal.ofBits .f32 0x00000000#32)))
      (max (Ideal.ofBits .f32 0x3F800000#32) (∑ k : Fin 1024, px k * py k))
    * Ideal.ofBits .f32 0x44800000#32)

/-- With every presence indicator 1 the kernel's element is the specification's: Σ x²·1 = Σ x², Σ 1·y² = Σ y², the
    count is 1024, and the select keeps the clipped squared distance. -/
theorem kelt_eq (x y : Fin 1024 → EReal) :
    kelt x (fun k => x k * x k) (fun _ => 1) y (fun k => y k * y k) (fun _ => 1)
      = post (Ideal.ofBits .f32 0xC0000000#32 * (∑ k : Fin 1024, x k * y k) + (∑ k : Fin 1024, x k * x k)
          + (∑ k : Fin 1024, y k * y k)) := by
  unfold kelt post
  simp only [mul_one, one_mul]
  rw [show (∑ _k : Fin 1024, (1 : EReal)) = 1024 by simpa using count_eq, count_not_lt_half, select_zero,
    Ideal.ofBits_zero_f32, ofBits_one]

end Cert.NanDist

end
-- ==== Proof.RefIsG.lean ====
/-
  The reference program's result, read one operation at a time, is the specification `G` of its two arguments.
-/
import proofs.«170582_j5634997092779_2_alg».proof.Proof.RefRead
import proofs.«170582_j5634997092779_2_alg».proof.Proof.Spec
import Idealize.ShloMosaic.Lib.ValueIdx
import Idealize.ShloMosaic.PureOps.Ideal.Laws

noncomputable section

namespace Cert.NanDist.Ref

open Cert.ReferenceIdeal Cert.ReferenceIdeal.Gen Cert.ReferenceIdeal.ReadP Idealize.ShloMosaic Idealize.ShloMosaic.ValueIdx

/-! ## The elementwise stages at an index

Over the extended reals no entry is missing, so the zero-filled arrays are the arrays, every missing indicator is 0
and every presence indicator is 1. -/

/-- The zero-filled `X` is `X`. -/
private theorem v2_at (X : (⟨S4096x1024, .f32⟩ : BufTy).Contents (Elt Ideal)) (i : S4096x1024.Idx) :
    val_main_v2 (F := Ideal) X i = X i := by
  rw [val_main_v2_apply, val_main_v0_apply, val_main_call0_v1_apply, val_main_call0_v0_apply, val_main_cst_apply]
  exact fill_eq (X i)

/-- The zero-filled `Y` is `Y`. -/
private theorem v3_at (Y : (⟨S4096x1024, .f32⟩ : BufTy).Contents (Elt Ideal)) (i : S4096x1024.Idx) :
    val_main_v3 (F := Ideal) Y i = Y i := by
  rw [val_main_v3_apply, val_main_v1_apply, val_main_call1_v1_apply, val_main_call1_v0_apply, val_main_cst_0_apply]
  exact fill_eq (Y i)

/-- The squares of `X`'s entries. -/
private theorem v4_at (X : (⟨S4096x1024, .f32⟩ : BufTy).Contents (Elt Ideal)) (i : S4096x1024.Idx) :
    val_main_v4 (F := Ideal) X i = X i * X i := by
  rw [val_main_v4_apply, v2_at]; rfl

/-- The squares of `Y`'s entries. -/
private theorem v5_at (Y : (⟨S4096x1024, .f32⟩ : BufTy).Contents (Elt Ideal)) (i : S4096x1024.Idx) :
    val_main_v5 (F := Ideal) Y i = Y i * Y i := by
  rw [val_main_v5_apply, v3_at]; rfl

/-- The missing indicator of `Y`, transposed, is 0. -/
private theorem v20_at (Y : (⟨S4096x1024, .f32⟩ : BufTy).Contents (Elt Ideal)) (j : S1024x4096.Idx) :
    val_main_v20 (F := Ideal) Y j = 0 := by
  rw [val_main_v20_apply, val_main_v19_apply, val_main_v1_apply]
  exact missing_eq _

/-- The missing indicator of `X` is 0. -/
private theorem v23_at (X : (⟨S4096x1024, .f32⟩ : BufTy).Contents (Elt Ideal)) (i : S4096x1024.Idx) :
    val_main_v23 (F := Ideal) X i = 0 := by
  rw [val_main_v23_apply, val_main_v0_apply]
  exact missing_eq _

/-- The presence indicator of `X` is 1. -/
private theorem v30_at (X : (⟨S4096x1024, .f32⟩ : BufTy).Contents (Elt Ideal)) (i : S4096x1024.Idx) :
    val_main_v30 (F := Ideal) X i = 1 := by
  rw [val_main_v30_apply, val_main_v29_apply, val_main_cst_5_apply, val_main_v28_apply, val_main_v0_apply]
  exact present_eq _

/-- The presence indicator of `Y`, transposed, is 1. -/
private theorem v34_at (Y : (⟨S4096x1024, .f32⟩ : BufTy).Contents (Elt Ideal)) (j : S1024x4096.Idx) :
    val_main_v34 (F := Ideal) Y j = 1 := by
  rw [val_main_v34_apply, val_main_v33_apply, val_main_v32_apply, val_main_cst_6_apply, val_main_v31_apply,
    val_main_v1_apply]
  exact present_eq _

/-! ## The six contractions at the pair of rows `(p, q)` -/

/-- The inner product of row `p` of `X` with row `q` of `Y`. -/
private theorem v7_at (X Y : (⟨S4096x1024, .f32⟩ : BufTy).Contents (Elt Ideal)) (p q : Fin 4096) :
    val_main_v7 (F := Ideal) X Y (ix2 p q) = dot X Y p q := by
  rw [val_main_v7_apply]
  refine Finset.sum_congr rfl fun k _ => ?_
  have hl : lidx_main_v7 (ix2 p q) k = ix2 p k :=
    funext fun a => Fin.ext (by match a with | ⟨0, _⟩ => rfl | ⟨1, _⟩ => rfl)
  have hr : idx_main_v6 (ridx_main_v7 (ix2 p q) k) = ix2 q k :=
    funext fun a => Fin.ext (by match a with | ⟨0, _⟩ => rfl | ⟨1, _⟩ => rfl)
  rw [val_main_v6_apply, v2_at, v3_at, hl, hr]

/-- The squared norm of row `p` of `X`, spread along the columns. -/
private theorem v12_at (X : (⟨S4096x1024, .f32⟩ : BufTy).Contents (Elt Ideal)) (p q : Fin 4096) :
    val_main_v12 (F := Ideal) X (ix2 p q) = dot X X p p := by
  rw [val_main_v12_apply, val_main_v11_apply, val_main_v10_apply, val_main_cst_2_apply]
  refine (congrArg (· + _) Ideal.ofBits_zero_f32).trans ((zero_add _).trans ?_)
  refine Finset.sum_congr rfl fun k _ => ?_
  have h : idx_main_v10 (idx_main_v11 (idx_main_v12 (ix2 p q))) k = ix2 p k :=
    funext fun a => Fin.ext (by match a with | ⟨0, _⟩ => rfl | ⟨1, _⟩ => rfl)
  rw [v4_at, h]

/-- The squared norm of row `q` of `Y`, spread along the rows. -/
private theorem v17_at (Y : (⟨S4096x1024, .f32⟩ : BufTy).Contents (Elt Ideal)) (p q : Fin 4096) :
    val_main_v17 (F := Ideal) Y (ix2 p q) = dot Y Y q q := by
  rw [val_main_v17_apply, val_main_v16_apply, val_main_v15_apply, val_main_v14_apply, val_main_cst_3_apply]
  refine (congrArg (· + _) Ideal.ofBits_zero_f32).trans ((zero_add _).trans ?_)
  refine Finset.sum_congr rfl fun k _ => ?_
  have h : idx_main_v14 (idx_main_v15 (idx_main_v16 (idx_main_v17 (ix2 p q)))) k = ix2 q k :=
    funext fun a => Fin.ext (by match a with | ⟨0, _⟩ => rfl | ⟨1, _⟩ => rfl)
  rw [v5_at, h]

/-- The squares of `X` against the missing indicator of `Y`: every term is `x² · 0`. -/
private theorem v21_at (X Y : (⟨S4096x1024, .f32⟩ : BufTy).Contents (Elt Ideal)) (i : S4096x4096.Idx) :
    val_main_v21 (F := Ideal) X Y i = 0 := by
  rw [val_main_v21_apply]
  exact Finset.sum_eq_zero fun k _ => by rw [v20_at, mul_zero]

/-- The missing indicator of `X` against the squares of `Y`: every term is `0 · y²`. -/
private theorem v25_at (X Y : (⟨S4096x1024, .f32⟩ : BufTy).Contents (Elt Ideal)) (i : S4096x4096.Idx) :
    val_main_v25 (F := Ideal) X Y i = 0 := by
  rw [val_main_v25_apply]
  exact Finset.sum_eq_zero fun k _ => by rw [v23_at, zero_mul]

/-- The count of coordinates present in both rows is 1024. -/
private theorem v35_at (X Y : (⟨S4096x1024, .f32⟩ : BufTy).Contents (Elt Ideal)) (i : S4096x4096.Idx) :
    val_main_v35 (F := Ideal) X Y i = 1024 := by
  rw [val_main_v35_apply]
  refine (Finset.sum_congr rfl fun k _ => ?_).trans count_eq
  rw [v30_at, v34_at]

/-! ## The last stage at an index -/

/-- Index by index the reference's last stage is `G`. -/
theorem ref_eq (X Y : (⟨S4096x1024, .f32⟩ : BufTy).Contents (Elt Ideal)) :
    Cert.ReferenceIdeal.ReadP.val_main_v44 (F := Ideal) X Y = Cert.NanDist.G X Y := by
  funext i
  obtain ⟨p, q, rfl⟩ : ∃ (p q : Fin 4096), i = ix2 p q := ⟨i 0, i 1, eq_ix2 i⟩
  rw [G_ix2, val_main_v44_apply, val_main_v43_apply, val_main_v42_apply, val_main_cst_10_apply, val_main_v41_apply,
    val_main_v40_apply, val_main_v39_apply, val_main_cst_9_apply, val_main_v38_apply, val_main_v37_apply,
    val_main_v36_apply, val_main_cst_7_apply, v35_at, val_main_v27_apply, val_main_call2_v1_apply,
    val_main_call2_v0_apply, val_main_cst_4_apply, val_main_v26_apply, v25_at, val_main_v22_apply, v21_at,
    val_main_v18_apply, v17_at, val_main_v13_apply, v12_at, val_main_v9_apply, val_main_v8_apply,
    val_main_cst_1_apply, v7_at]
  simp only [Ideal.hostUnary_sqrt_def, Ideal.mulf_def, Ideal.hostDivf_def, Ideal.maximumf_def, Ideal.subf_def,
    Ideal.addf_def, Ideal.ofBits_def, Ideal.cmpf_def]
  rw [count_not_eq_zero, select_zero, sub_zero, sub_zero, ofBits_one, Ideal.ofBits_zero_f32, max_comm (0 : EReal)]
  rfl

end Cert.NanDist.Ref

end
-- ==== Proof.KernelHost.lean ====
/-
  The six arrays the kernel's windows read, as the host operations before the launch leave them, in terms of the
  two argument arrays: the zero-filled entries are the entries, their squares, and presence indicators all 1.
-/
import proofs.«170582_j5634997092779_2_alg».proof.Proof.Gen.KernelIdeal.Frame
import proofs.«170582_j5634997092779_2_alg».proof.Proof.Spec
import Idealize.ShloMosaic.Lib.StableHlo.Run

noncomputable section

namespace Cert.NanDist.Host

open Cert.KernelIdeal Cert.KernelIdeal.Gen Idealize.ShloMosaic Idealize.ShloMosaic.TcCoe Idealize.SL.Sem

/-! ## The host computations, read at one index

Over the extended reals the test "x ≠ x" fails at every entry, so the mask of missing entries is 0 everywhere:
the zero-filled array is the array itself, and the presence indicator 1 − mask is 1. -/

section Pointwise

/-- The splat of the scalar 0 over the array's shape. -/
private abbrev zeros : FVec Ideal S4096x1024 .f32 :=
  broadcastInDim S4096x1024 ![] bcast_S_S4096x1024 (constant (F := Ideal) S_ .f32 0x00000000#32)

/-- The splat of the scalar 1 over the array's shape. -/
private abbrev ones : FVec Ideal S4096x1024 .f32 :=
  broadcastInDim S4096x1024 ![] bcast_S_S4096x1024 (constant (F := Ideal) S_ .f32 0x3F800000#32)

/-- An array with its missing entries (those that differ from themselves) replaced by 0. -/
private abbrev filled (x : FVec Ideal S4096x1024 .f32) : FVec Ideal S4096x1024 .f32 :=
  select (cmpf .une x x) zeros x

/-- The presence indicator of an array's entries: 1 minus the missing mask read as a float. -/
private abbrev presence (x : FVec Ideal S4096x1024 .f32) : FVec Ideal S4096x1024 .f32 :=
  subf ones (uitofp .f32 (cmpf .une x x))

/-- No entry is missing, so zero-filling keeps every entry. -/
private theorem filled_apply (x : FVec Ideal S4096x1024 .f32) (i : S4096x1024.Idx) : filled x i = x i := by
  show Scalar.select (Ideal.cmp .une (x i) (x i)) (Ideal.ofBits .f32 0x00000000#32) (x i) = x i
  exact fill_eq (x i)

/-- No entry is missing, so every presence indicator is 1. -/
private theorem presence_apply (x : FVec Ideal S4096x1024 .f32) (i : S4096x1024.Idx) : presence x i = 1 := by
  show Ideal.ofBits .f32 0x3F800000#32 - FloatOps.uitofp (F := Ideal) .f32 (Ideal.cmp .une (x i) (x i)) = 1
  exact present_eq (x i)

end Pointwise

variable (m : (ℓ : Loc nD τ sig) → Buf (Elt Ideal) ℓ) (c : Dev nD)

/-- The argument X as the launch memory holds it on core `c`. -/
abbrev argX : S4096x1024.Idx → EReal := m ((c : Thread nD τ).loc main_arg0)
/-- The argument Y as the launch memory holds it on core `c`. -/
abbrev argY : S4096x1024.Idx → EReal := m ((c : Thread nD τ).loc main_arg1)

/-- Window 0's array (zero-filled X) is X. -/
theorem V_xc : @Eq (S4096x1024.Idx → EReal) (V m c main_v12) (argX m c) := by
  -- the host leaves here the narrowing (the identity on extended reals) of the zero-filled X
  have e : @Eq (S4096x1024.Idx → EReal) (V m c main_v12)
      (truncf (F := Ideal) .bf16 (filled (argX m c)) bitsLt_bf16_f32) := by
    dsimp only [V]; simp only [hostOps0, hostOps0_1, hostOps0_2, hostOps0_3, hostOps0_4, List.flatten_cons, List.flatten_nil, List.append_nil, List.cons_append, List.nil_append]; after_results <;> rfl
  rw [e]; funext i
  rw [ValueIdx.truncf_apply]; exact filled_apply _ i
/-- Window 1's array is X squared entry by entry. -/
theorem V_xx : @Eq (S4096x1024.Idx → EReal) (V m c main_v13) (fun i => argX m c i * argX m c i) := by
  -- the narrowing of the product of the zero-filled X with itself
  have e : @Eq (S4096x1024.Idx → EReal) (V m c main_v13)
      (truncf (F := Ideal) .bf16 (mulf (filled (argX m c)) (filled (argX m c))) bitsLt_bf16_f32) := by
    dsimp only [V]; simp only [hostOps0, hostOps0_1, hostOps0_2, hostOps0_3, hostOps0_4, List.flatten_cons, List.flatten_nil, List.append_nil, List.cons_append, List.nil_append]; after_results <;> rfl
  rw [e]; funext i
  rw [ValueIdx.truncf_apply, ValueIdx.mulf_apply, filled_apply]
/-- Window 2's array (presence of X's entries) is 1 everywhere. -/
theorem V_px : @Eq (S4096x1024.Idx → EReal) (V m c main_v14) (fun _ => 1) := by
  -- the narrowing of 1 − (the missing mask of X read as a float)
  have e : @Eq (S4096x1024.Idx → EReal) (V m c main_v14)
      (truncf (F := Ideal) .bf16 (presence (argX m c)) bitsLt_bf16_f32) := by
    dsimp only [V]; simp only [hostOps0, hostOps0_1, hostOps0_2, hostOps0_3, hostOps0_4, List.flatten_cons, List.flatten_nil, List.append_nil, List.cons_append, List.nil_append]; after_results <;> rfl
  rw [e]; funext i
  rw [ValueIdx.truncf_apply]; exact presence_apply _ i
/-- Window 3's array (zero-filled Y) is Y. -/
theorem V_yc : @Eq (S4096x1024.Idx → EReal) (V m c main_v15) (argY m c) := by
  have e : @Eq (S4096x1024.Idx → EReal) (V m c main_v15)
      (truncf (F := Ideal) .bf16 (filled (argY m c)) bitsLt_bf16_f32) := by
    dsimp only [V]; simp only [hostOps0, hostOps0_1, hostOps0_2, hostOps0_3, hostOps0_4, List.flatten_cons, List.flatten_nil, List.append_nil, List.cons_append, List.nil_append]; after_results <;> rfl
  rw [e]; funext i
  rw [ValueIdx.truncf_apply]; exact filled_apply _ i
/-- Window 4's array is Y squared entry by entry. -/
theorem V_yy : @Eq (S4096x1024.Idx → EReal) (V m c main_v16) (fun i => argY m c i * argY m c i) := by
  have e : @Eq (S4096x1024.Idx → EReal) (V m c main_v16)
      (truncf (F := Ideal) .bf16 (mulf (filled (argY m c)) (filled (argY m c))) bitsLt_bf16_f32) := by
    dsimp only [V]; simp only [hostOps0, hostOps0_1, hostOps0_2, hostOps0_3, hostOps0_4, List.flatten_cons, List.flatten_nil, List.append_nil, List.cons_append, List.nil_append]; after_results <;> rfl
  rw [e]; funext i
  rw [ValueIdx.truncf_apply, ValueIdx.mulf_apply, filled_apply]
/-- Window 5's array (presence of Y's entries) is 1 everywhere. -/
theorem V_py : @Eq (S4096x1024.Idx → EReal) (V m c main_v17) (fun _ => 1) := by
  have e : @Eq (S4096x1024.Idx → EReal) (V m c main_v17)
      (truncf (F := Ideal) .bf16 (presence (argY m c)) bitsLt_bf16_f32) := by
    dsimp only [V]; simp only [hostOps0, hostOps0_1, hostOps0_2, hostOps0_3, hostOps0_4, List.flatten_cons, List.flatten_nil, List.append_nil, List.cons_append, List.nil_append]; after_results <;> rfl
  rw [e]; funext i
  rw [ValueIdx.truncf_apply]; exact presence_apply _ i

end Cert.NanDist.Host

end
-- ==== Proof.KernelPayload.lean ====
/-
  One element of the kernel body's result, from the six blocks it loads: four inner products over the 1024
  coordinates (each `tpu.matmul` into a zero accumulator against a transposed block), then the pointwise arithmetic.
-/
import proofs.«170582_j5634997092779_2_alg».proof.Proof.Gen.KernelIdeal.Skeleton
import proofs.«170582_j5634997092779_2_alg».proof.Proof.Spec
import Idealize.ShloMosaic.Lib.ValueIdx
import Idealize.ShloMosaic.Lib.Pipeline.Value
import Idealize.ShloMosaic.PureOps.Ideal.Laws

noncomputable section

namespace Cert.NanDist.Pay

open Cert.KernelIdeal Cert.KernelIdeal.Gen Idealize.ShloMosaic Idealize.ShloMosaic.ValueIdx

section Product

/-! ## A block times a transposed block

The product's dimension numbers contract the left operand's axis 1 with the right operand's axis 0; the left
operand's axis 0 and the right operand's axis 1 are the result's two axes. So at output index (p, q) and contraction
coordinate k the left operand is read at (p, k) and the right one, the transpose of a block, at (k, q): the block's
entry (q, k). -/

/-- The left operand's row is the output's row. -/
theorem lhs_row (i : S512x512.Idx) (c : dot_S512x1024_S1024x512_S512x512_1_0_0_1_n_n.contr.Idx) :
    (dot_S512x1024_S1024x512_S512x512_1_0_0_1_n_n.lhsIdx i c 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

/-- The left operand's column is the contraction coordinate. -/
theorem lhs_col (i : S512x512.Idx) (c : dot_S512x1024_S1024x512_S512x512_1_0_0_1_n_n.contr.Idx) :
    (dot_S512x1024_S1024x512_S512x512_1_0_0_1_n_n.lhsIdx i c 1).val = (c ⟨0, by decide⟩).val :=
  dot_S512x1024_S1024x512_S512x512_1_0_0_1_n_n.lhsIdx_val_of_single rfl i c

/-- The right operand's row is the contraction coordinate. -/
theorem rhs_row (i : S512x512.Idx) (c : dot_S512x1024_S1024x512_S512x512_1_0_0_1_n_n.contr.Idx) :
    (dot_S512x1024_S1024x512_S512x512_1_0_0_1_n_n.rhsIdx i c 0).val = (c ⟨0, by decide⟩).val :=
  dot_S512x1024_S1024x512_S512x512_1_0_0_1_n_n.rhsIdx_val_of_single rfl i c

/-- The right operand's column is the output's column. -/
theorem rhs_col (i : S512x512.Idx) (c : dot_S512x1024_S1024x512_S512x512_1_0_0_1_n_n.contr.Idx) :
    (dot_S512x1024_S1024x512_S512x512_1_0_0_1_n_n.rhsIdx i c 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- Entry (p, q) of a block times the transpose of a block, into the zero accumulator, is the inner product of row p
    of the first with row q of the second. -/
theorem mm_apply (a b : FVec Ideal S512x1024 .bf16) (p q : Fin 512) :
    matmul dot_S512x1024_S1024x512_S512x512_1_0_0_1_n_n none (shapeCast S512x1024 a Facts₀.shapeCasts_S512x1024_S512x1024)
        (transpose S1024x512 [1, 0] (shapeCast S512x1024 b Facts₀.shapeCasts_S512x1024_S512x1024) Facts₀.transposes_S512x1024_p1_0_S1024x512)
        (constant (F := Ideal) S512x512 .f32 0x00000000#32) (ix2 p q)
      = ∑ k : Fin 1024, a (ix2 p k) * b (ix2 q k) := by
  rw [shapeCast_self, shapeCast_self]
  refine (Ideal.matmul_constant_zero_apply dot_S512x1024_S1024x512_S512x512_1_0_0_1_n_n none a _ (ix2 p q)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k :=
    funext fun a => Fin.ext (by
      match a with
      | ⟨0, _⟩ => exact lhs_row _ _
      | ⟨1, _⟩ => exact (lhs_col _ _).trans hk)
  have er : dot_S512x1024_S1024x512_S512x512_1_0_0_1_n_n.rhsIdx (ix2 p q) ((contrEquiv1 dot_S512x1024_S1024x512_S512x512_1_0_0_1_n_n 1024 rfl rfl).symm k) = ix2 k q :=
    funext fun a => Fin.ext (by
      match a with
      | ⟨0, _⟩ => exact (rhs_row _ _).trans hk
      | ⟨1, _⟩ => exact rhs_col _ _)
  rw [el, er]
  exact congrArg (a (ix2 p k) * ·) (transpose_apply [1, 0] b Facts₀.transposes_S512x1024_p1_0_S1024x512 (ix2 k q) (ix2 q k)
    (fun c => match c with
      | ⟨0, _⟩ => rfl
      | ⟨1, _⟩ => rfl))

end Product

/-- Element (p, q) of the body's result is `kelt` of rows p of the three X-side blocks and rows q of the three
    Y-side blocks. -/
theorem pay_apply (x0 x1 x2 x3 x4 x5 : Vec Ideal S512x1024 .bf16) (p q : Fin 512) :
    k0_pay1 (F := Ideal) x0 x1 x2 x3 x4 x5 (ix2 p q)
      = Cert.NanDist.kelt (fun k => x0 (ix2 p k)) (fun k => x1 (ix2 p k)) (fun k => x2 (ix2 p k))
          (fun k => x3 (ix2 q k)) (fun k => x4 (ix2 q k)) (fun k => x5 (ix2 q k)) := by
  -- the four products read at (p, q) are the four inner products of the rows
  have e0 := mm_apply x0 x3 p q
  have e1 := mm_apply x1 x5 p q
  have e2 := mm_apply x2 x4 p q
  have e3 := mm_apply x2 x5 p q
  unfold k0_pay1 Cert.NanDist.kelt
  beta_reduce
  rw [← e0, ← e1, ← e2, ← e3]
  -- every remaining operation acts entry by entry: read at (p, q) it is the same arithmetic on those four numbers
  rfl

end Cert.NanDist.Pay

end
-- ==== Proof.KernelBlocks.lean ====
/-
  From blocks to the array: what the kernel's result array holds after the run, as ONE function of the arguments.

  The grid has 8 × 8 points. At point t = (r, s) the kernel reads rows 512·r … 512·r + 511 of the three X-side arrays
  (zero-filled X, its squares, its presence indicators), rows 512·s … 512·s + 511 of the three Y-side arrays, all 1024
  columns of each, and writes block (r, s) of the 4096 × 4096 result. Element (p, q) of that block is `kelt` of the six
  rows; the X-side arrays are X, X·X and 1, the Y-side ones Y, Y·Y and 1, so it is the specification at
  (512·r + p, 512·s + q). The 64 blocks tile the result, so the whole array is `G X Y`.
-/
import proofs.«170582_j5634997092779_2_alg».proof.Proof.Gen.KernelIdeal.Value
import proofs.«170582_j5634997092779_2_alg».proof.Proof.Spec
import proofs.«170582_j5634997092779_2_alg».proof.Proof.KernelHost
import proofs.«170582_j5634997092779_2_alg».proof.Proof.KernelPayload
import Idealize.ShloMosaic.Lib.Pipeline.Value
import Idealize.ShloMosaic.Lib.ValueIdx

noncomputable section

namespace Cert.NanDist.Blocks

open Cert.KernelIdeal Cert.KernelIdeal.Gen Idealize.ShloMosaic Idealize.ShloMosaic.TcCoe Idealize.SL.Sem
open Idealize.ShloMosaic.ValueIdx Cert.NanDist Cert.NanDist.Host
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- Decided over the 64 points: the X-side windows sit at the output block's row index, the Y-side windows at its
    column index, every input window at column block 0, and the output's two block indices are at most 7. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (1 : Fin 2) ∧ win0_3.index t (1 : Fin 2) = 0
    ∧ win0_4.index t (0 : Fin 2) = win0_6.index t (1 : Fin 2) ∧ win0_4.index t (1 : Fin 2) = 0
    ∧ win0_5.index t (0 : Fin 2) = win0_6.index t (1 : Fin 2) ∧ win0_5.index t (1 : Fin 2) = 0
    ∧ win0_6.index t (0 : Fin 2) ≤ 7 ∧ win0_6.index t (1 : Fin 2) ≤ 7 :=
  (by decide +kernel : ∀ t : Fin grid0.N, _)

/-- Every block of the result is some point's. -/
theorem idx_onto : ∀ (q0 q1 : Fin 8), ∃ t : Fin cfg0.N, win0_6.index t = ![q0.val, q1.val] :=
  (by decide +kernel : ∀ (q0 q1 : Fin 8), ∃ t : Fin grid0.N, win0_6.index t = ![q0.val, q1.val])

/-- The row of the result that row `p` of point `t`'s block is. -/
def gi (t : Fin cfg0.N) (p : Fin 512) : Fin 4096 :=
  ⟨win0_6.index t (0 : Fin 2) * 512 + p.val, by have := (idx_facts t).2.2.2.2.2.2.2.2.2.2.2.2.1; have := p.isLt; omega⟩
/-- The column of the result that column `q` of point `t`'s block is. -/
def gj (t : Fin cfg0.N) (q : Fin 512) : Fin 4096 :=
  ⟨win0_6.index t (1 : Fin 2) * 512 + q.val, by have := (idx_facts t).2.2.2.2.2.2.2.2.2.2.2.2.2; have := q.isLt; omega⟩

/-! ## Where a block's element sits in its array -/

theorem emb_out (t : Fin cfg0.N) (p q : Fin 512) :
    ((cfg0.win 6).blk t).view.emb (ix2 p q) = ix2 (gi t p) (gj t q) := by
  funext a; apply Fin.ext
  match a with
  | ⟨0, _⟩ => show win0_6.index t (0 : Fin 2) * 512 + 1 * p.val = win0_6.index t (0 : Fin 2) * 512 + p.val; omega
  | ⟨1, _⟩ => show win0_6.index t (1 : Fin 2) * 512 + 1 * q.val = win0_6.index t (1 : Fin 2) * 512 + q.val; omega

theorem emb_0 (t : Fin cfg0.N) (p : Fin 512) (k : Fin 1024) :
    ((cfg0.win 0).blk t).view.emb (ix2 p k) = ix2 (gi t p) k := by
  obtain ⟨e0, e1, -⟩ := idx_facts t
  funext a; apply Fin.ext
  match a with
  | ⟨0, _⟩ => show win0_0.index t (0 : Fin 2) * 512 + 1 * p.val = win0_6.index t (0 : Fin 2) * 512 + p.val; omega
  | ⟨1, _⟩ => show win0_0.index t (1 : Fin 2) * 1024 + 1 * k.val = k.val; omega

theorem emb_1 (t : Fin cfg0.N) (p : Fin 512) (k : Fin 1024) :
    ((cfg0.win 1).blk t).view.emb (ix2 p k) = ix2 (gi t p) k := by
  obtain ⟨-, -, e0, e1, -⟩ := idx_facts t
  funext a; apply Fin.ext
  match a with
  | ⟨0, _⟩ => show win0_1.index t (0 : Fin 2) * 512 + 1 * p.val = win0_6.index t (0 : Fin 2) * 512 + p.val; omega
  | ⟨1, _⟩ => show win0_1.index t (1 : Fin 2) * 1024 + 1 * k.val = k.val; omega

theorem emb_2 (t : Fin cfg0.N) (p : Fin 512) (k : Fin 1024) :
    ((cfg0.win 2).blk t).view.emb (ix2 p k) = ix2 (gi t p) k := by
  obtain ⟨-, -, -, -, e0, e1, -⟩ := idx_facts t
  funext a; apply Fin.ext
  match a with
  | ⟨0, _⟩ => show win0_2.index t (0 : Fin 2) * 512 + 1 * p.val = win0_6.index t (0 : Fin 2) * 512 + p.val; omega
  | ⟨1, _⟩ => show win0_2.index t (1 : Fin 2) * 1024 + 1 * k.val = k.val; omega

theorem emb_3 (t : Fin cfg0.N) (q : Fin 512) (k : Fin 1024) :
    ((cfg0.win 3).blk t).view.emb (ix2 q k) = ix2 (gj t q) k := by
  obtain ⟨-, -, -, -, -, -, e0, e1, -⟩ := idx_facts t
  funext a; apply Fin.ext
  match a with
  | ⟨0, _⟩ => show win0_3.index t (0 : Fin 2) * 512 + 1 * q.val = win0_6.index t (1 : Fin 2) * 512 + q.val; omega
  | ⟨1, _⟩ => show win0_3.index t (1 : Fin 2) * 1024 + 1 * k.val = k.val; omega

theorem emb_4 (t : Fin cfg0.N) (q : Fin 512) (k : Fin 1024) :
    ((cfg0.win 4).blk t).view.emb (ix2 q k) = ix2 (gj t q) k := by
  obtain ⟨-, -, -, -, -, -, -, -, e0, e1, -⟩ := idx_facts t
  funext a; apply Fin.ext
  match a with
  | ⟨0, _⟩ => show win0_4.index t (0 : Fin 2) * 512 + 1 * q.val = win0_6.index t (1 : Fin 2) * 512 + q.val; omega
  | ⟨1, _⟩ => show win0_4.index t (1 : Fin 2) * 1024 + 1 * k.val = k.val; omega

theorem emb_5 (t : Fin cfg0.N) (q : Fin 512) (k : Fin 1024) :
    ((cfg0.win 5).blk t).view.emb (ix2 q k) = ix2 (gj t q) k := by
  obtain ⟨-, -, -, -, -, -, -, -, -, -, e0, e1, -⟩ := idx_facts t
  funext a; apply Fin.ext
  match a with
  | ⟨0, _⟩ => show win0_5.index t (0 : Fin 2) * 512 + 1 * q.val = win0_6.index t (1 : Fin 2) * 512 + q.val; omega
  | ⟨1, _⟩ => show win0_5.index t (1 : Fin 2) * 1024 + 1 * k.val = k.val; omega

/-! ## The six input blocks at a point, as rows of X and Y -/

theorem blk_xc (c : Dev nD) (t : Fin cfg0.N) (p : Fin 512) (k : Fin 1024) :
    iblk m c 0 t (ix2 p k) = argX m c (ix2 (gi t p) k) := by
  show (V m c main_v12 : S4096x1024.Idx → EReal) (((cfg0.win 0).blk t).view.emb (ix2 p k)) = _
  rw [emb_0, V_xc]

theorem blk_xx (c : Dev nD) (t : Fin cfg0.N) (p : Fin 512) (k : Fin 1024) :
    iblk m c 1 t (ix2 p k) = argX m c (ix2 (gi t p) k) * argX m c (ix2 (gi t p) k) := by
  show (V m c main_v13 : S4096x1024.Idx → EReal) (((cfg0.win 1).blk t).view.emb (ix2 p k)) = _
  rw [emb_1, V_xx]

theorem blk_px (c : Dev nD) (t : Fin cfg0.N) (p : Fin 512) (k : Fin 1024) :
    iblk m c 2 t (ix2 p k) = (1 : EReal) := by
  show (V m c main_v14 : S4096x1024.Idx → EReal) (((cfg0.win 2).blk t).view.emb (ix2 p k)) = _
  rw [V_px]

theorem blk_yc (c : Dev nD) (t : Fin cfg0.N) (q : Fin 512) (k : Fin 1024) :
    iblk m c 3 t (ix2 q k) = argY m c (ix2 (gj t q) k) := by
  show (V m c main_v15 : S4096x1024.Idx → EReal) (((cfg0.win 3).blk t).view.emb (ix2 q k)) = _
  rw [emb_3, V_yc]

theorem blk_yy (c : Dev nD) (t : Fin cfg0.N) (q : Fin 512) (k : Fin 1024) :
    iblk m c 4 t (ix2 q k) = argY m c (ix2 (gj t q) k) * argY m c (ix2 (gj t q) k) := by
  show (V m c main_v16 : S4096x1024.Idx → EReal) (((cfg0.win 4).blk t).view.emb (ix2 q k)) = _
  rw [emb_4, V_yy]

theorem blk_py (c : Dev nD) (t : Fin cfg0.N) (q : Fin 512) (k : Fin 1024) :
    iblk m c 5 t (ix2 q k) = (1 : EReal) := by
  show (V m c main_v17 : S4096x1024.Idx → EReal) (((cfg0.win 5).blk t).view.emb (ix2 q k)) = _
  rw [V_py]

/-! ## One element of what a point writes -/

/-- `kelt` respects equality of its six rows. -/
theorem kelt_congr {a a' b b' d d' e e' f f' g g' : Fin 1024 → EReal}
    (ha : a = a') (hb : b = b') (hd : d = d') (he : e = e') (hf : f = f') (hg : g = g') :
    kelt a b d e f g = kelt a' b' d' e' f' g' := by
  subst ha hb hd he hf hg; rfl

/-- Element (p, q) of the body's result at point `t` is the specification at (512·r + p, 512·s + q). -/
theorem elt_eq (c : Dev nD) (t : Fin cfg0.N) (p q : Fin 512) :
    k0_pay1 (F := Ideal) (iblk m c 0 t) (iblk m c 1 t) (iblk m c 2 t) (iblk m c 3 t) (iblk m c 4 t) (iblk m c 5 t) (ix2 p q)
      = G (argX m c) (argY m c) (ix2 (gi t p) (gj t q)) := by
  refine (Pay.pay_apply (iblk m c 0 t) (iblk m c 1 t) (iblk m c 2 t) (iblk m c 3 t) (iblk m c 4 t) (iblk m c 5 t) p q).trans ?_
  refine (kelt_congr (funext fun k => blk_xc m c t p k) (funext fun k => blk_xx m c t p k)
    (funext fun k => blk_px m c t p k) (funext fun k => blk_yc m c t q k) (funext fun k => blk_yy m c t q k)
    (funext fun k => blk_py m c t q k)).trans ?_
  exact kelt_eq (fun k => argX m c (ix2 (gi t p) k)) (fun k => argY m c (ix2 (gj t q) k))

/-! ## What a point writes back, the cover, the array, the run -/

/-- What point `t` writes back is block `t` of `G X Y`. -/
theorem flushed_eq (c : Dev nD) (t : Fin cfg0.N) :
    (dats m 0 c).flushed 6 t = ((cfg0.win 6).blk t).view.read (Elt Ideal) (G (argX m c) (argY m c)) := by
  rw [Cert.KernelIdeal.Value.flushed6]
  unfold out0_6
  rw [View.canon_unit_zero hz]
  simp only [View.ld_unit_zero (S := S512x1024) hz]
  funext j
  obtain ⟨p, q, rfl⟩ : ∃ (p q : Fin 512), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = G (argX m c) (argY m c) (((cfg0.win 6).blk t).view.emb (ix2 p q))
  rw [emb_out]
  exact elt_eq m c t p q

/-- An index of the result is in point `t`'s block iff each coordinate is in the block's range on its axis. -/
theorem mem_blk (t : Fin cfg0.N) (i : S4096x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v18).slice (win0_6.rect t)).set ↔ _
  rw [View.set_slice_whole, Rect.mem_set_unit]
  exact Iff.rfl

/-- Every index of the result lies in the block of the point (i₀ / 512, i₁ / 512). -/
theorem cover (i : S4096x4096.Idx) :
    ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_6.index t (0 : Fin 2) = (i 0).val / 512 := congrFun ht 0
  have q1 : win0_6.index t (1 : Fin 2) = (i 1).val / 512 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The result array after the run is `G X Y`. -/
theorem final (c : Dev nD) : (dats m 0 c).arrAt 6 cfg0.N = G (argX m c) (argY m c) :=
  (dats m 0 c).arrAt_eq_of_cover 6 (G (argX m c) (argY m c)) (fun t _ => flushed_eq m c t) cover

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v18) = G (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.NanDist.Blocks

end
-- ==== Proof.lean ====
/-
  The certificate of the NaN-aware pairwise Euclidean distance kernel against its jnp reference.

  Read over the extended reals, both programs compute, for rows x = X i and y = Y j (1024 coordinates each),

      out (i, j) = √( max (−2·⟨x, y⟩ + ⟨x, x⟩ + ⟨y, y⟩) 0 / max 1 1024 · 1024 )

  (Proof/Spec.lean): there is no NaN among the extended reals, so no entry is missing, every presence indicator is 1
  and every pair of rows has all 1024 coordinates present. The kernel computes ⟨x, x⟩ as Σ x²·1 and the reference as
  Σ x² − Σ x²·0; the two agree by laws that hold for every extended real, so the precondition is never opened.

  The kernel side: the host operations before the launch leave X, X·X, 1, Y, Y·Y, 1 in the six window arrays
  (Proof/KernelHost.lean); one element of the body's result is four inner products and a pointwise tail
  (Proof/KernelPayload.lean); the 8 × 8 blocks tile the result (Proof/KernelBlocks.lean). The reference side: its
  run (Proof/RefRun.lean) read one operation at a time (Proof/RefRead.lean) is the same function
  (Proof/RefIsG.lean). The frames of the two kernel programs are the generated ones; the reference's frame is its
  run with the result dropped; the idealization rewrote nothing, so `preserves` is trivial.
-/
import proofs.«170582_j5634997092779_2_alg».proof.Defs
import proofs.«170582_j5634997092779_2_alg».proof.Proof.Gen.Kernel
import proofs.«170582_j5634997092779_2_alg».proof.Proof.Gen.Kernel.Skeleton
import proofs.«170582_j5634997092779_2_alg».proof.Proof.Gen.Kernel.Launch
import proofs.«170582_j5634997092779_2_alg».proof.Proof.Gen.Kernel.Points
import proofs.«170582_j5634997092779_2_alg».proof.Proof.Gen.Kernel.Frame
import proofs.«170582_j5634997092779_2_alg».proof.Proof.Gen.KernelIdeal
import proofs.«170582_j5634997092779_2_alg».proof.Proof.Gen.KernelIdeal.Skeleton
import proofs.«170582_j5634997092779_2_alg».proof.Proof.Gen.KernelIdeal.Launch
import proofs.«170582_j5634997092779_2_alg».proof.Proof.Gen.KernelIdeal.Points
import proofs.«170582_j5634997092779_2_alg».proof.Proof.Gen.KernelIdeal.Frame
import proofs.«170582_j5634997092779_2_alg».proof.Proof.Gen.ReferenceIdeal
import proofs.«170582_j5634997092779_2_alg».proof.Proof.Gen.Pre_finite_inputs
import proofs.«170582_j5634997092779_2_alg».proof.Proof.Gen.KernelIdeal.Value
import proofs.«170582_j5634997092779_2_alg».proof.Proof.RefRun
import proofs.«170582_j5634997092779_2_alg».proof.Proof.RefRead
import proofs.«170582_j5634997092779_2_alg».proof.Proof.Spec
import proofs.«170582_j5634997092779_2_alg».proof.Proof.RefIsG
import proofs.«170582_j5634997092779_2_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel launch: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on X and Y, the idealized kernel's result array ends at `G X Y` (the blocks tile it) and the
    idealized reference's at its last stage, which is `G` of its own arguments: the same array. -/
theorem algebraic : Cert.algebraic_KernelIdeal_ReferenceIdeal := by
  intro m ρ m' ρ' _ hagree
  refine ⟨fun c => Cert.NanDist.G (Cert.NanDist.Host.argX m c) (Cert.NanDist.Host.argY m c), Cert.NanDist.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v44_eq, Cert.NanDist.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
